-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S4096x128 : Shape := ⟨2, ![4096, 128]⟩
abbrev S4096 : Shape := ⟨1, ![4096]⟩
abbrev S4096x1 : Shape := ⟨2, ![4096, 1]⟩
abbrev S8192x4096 : Shape := ⟨2, ![8192, 4096]⟩
abbrev S256x4096 : Shape := ⟨2, ![256, 4096]⟩
abbrev S256 : Shape := ⟨1, ![256]⟩
abbrev S256x1 : Shape := ⟨2, ![256, 1]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S4096x4096, .bf16⟩
  | .hbm, ⟨3, _⟩ => ⟨S8192x4096, .f32⟩
  | .hbm, ⟨4, _⟩ => ⟨S8192x4096, .bf16⟩
  | .hbm, ⟨5, _⟩ => ⟨S8192x4096, .f32⟩
  | .hbm, ⟨6, _⟩ => ⟨S4x2048x4096, .f32⟩
  | .local _ .vmem, ⟨0, _⟩ => ⟨S4096x128, .f32⟩
  | .local _ .vmem, ⟨1, _⟩ => ⟨S4096x128, .f32⟩
  | .local _ .vmem, ⟨2, _⟩ => ⟨S4096x128, .bf16⟩
  | .local _ .vmem, ⟨3, _⟩ => ⟨S4096x128, .bf16⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S1024x4096, .bf16⟩
  | .local _ .vmem, ⟨9, _⟩ => ⟨S1024x4096, .bf16⟩
  | .local _ .vmem, ⟨10, _⟩ => ⟨S512x4096, .bf16⟩
  | .local _ .vmem, ⟨11, _⟩ => ⟨S512x4096, .bf16⟩
  | .local _ .vmem, ⟨12, _⟩ => ⟨S1024x512, .f32⟩
  | .local _ .vmem, ⟨13, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  broadcasts_S4096x1_S4096x128 : S4096x1.Broadcasts S4096x128
  bitsLt_bf16_f32 : FTy.bits .bf16 < FTy.bits .f32
  packedbf16_S4096x128_S4096x128_0_0 : (Rect.unit (s := S4096x128) ![0, 0] S4096x128.size inb_S4096x128_S4096x128_0_0).PackedRows (EltTy.packing .bf16)
  shapeCasts_S4x2048x4096_S8192x4096 : S4x2048x4096.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x4096_S256 : S256x4096.Reduces [1] S256
  shapeCasts_S256_S256x1 : S256.ShapeCasts S256x1
  broadcasts_S256x1_S256x4096 : S256x1.Broadcasts S256x4096
  packedbf16_S256x4096_S256x4096_0_0 : (Rect.unit (s := S256x4096) ![0, 0] S256x4096.size inb_S256x4096_S256x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x512_S1024x512_0_0 : ∀ a, (![0, 0] : Fin 2 → Nat) a + S1024x512.size a ≤ S1024x512.size a
  h_S1024x512 : 0 < S1024x512.numel
  shapeCasts_S8192x4096_S4x2048x4096 : S8192x4096.ShapeCasts S4x2048x4096
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x4096.size a
  hwx0_0 : ∀ i : grid0.Coords, EltTy.bits .f32 = 32 ∨ (Rect.block (s := S4096x4096) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x4096.size a
  hwx0_1 : ∀ i : grid0.Coords, EltTy.bits .bf16 = 32 ∨ (Rect.block (s := S4096x4096) S4096x128.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .bf16 = 32 ∨ (Rect.block (s := S8192x4096) S256x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x4096.size a ≤ S8192x4096.size a
  hwx2_0 : ∀ i : grid2.Coords, EltTy.bits .bf16 = 32 ∨ (Rect.block (s := S8192x4096) S1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x4096.size a ≤ S4096x4096.size a
  hwx2_1 : ∀ i : grid2.Coords, EltTy.bits .bf16 = 32 ∨ (Rect.block (s := S4096x4096) S512x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S8192x4096.size a
  hwx2_2 : ∀ i : grid2.Coords, EltTy.bits .f32 = 32 ∨ (Rect.block (s := S8192x4096) S1024x512.size (cc2_transform_2 i) (hinb2_2 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_arg1) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S512x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1024x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S131072x128 : Shape := ⟨2, ![131072, 128]⟩
abbrev S_ : Shape := ⟨0, ![]⟩
abbrev S131072 : Shape := ⟨1, ![131072]⟩
abbrev S131072x1 : Shape := ⟨2, ![131072, 1]⟩
abbrev S4x2048 : Shape := ⟨2, ![4, 2048]⟩
abbrev S4x2048x1 : Shape := ⟨3, ![4, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S131072x128, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S_, .f32⟩
  | .hbm, ⟨7, _⟩ => ⟨S131072, .f32⟩
  | .hbm, ⟨8, _⟩ => ⟨S131072x1, .f32⟩
  | .hbm, ⟨9, _⟩ => ⟨S131072x1, .f32⟩
  | .hbm, ⟨10, _⟩ => ⟨S_, .f32⟩
  | .hbm, ⟨11, _⟩ => ⟨S131072x1, .f32⟩
  | .hbm, ⟨12, _⟩ => ⟨S131072x1, .f32⟩
  | .hbm, ⟨13, _⟩ => ⟨S131072x1, .f32⟩
  | .hbm, ⟨14, _⟩ => ⟨S131072x1, .f32⟩
  | .hbm, ⟨15, _⟩ => ⟨S_, .f32⟩
  | .hbm, ⟨16, _⟩ => ⟨S131072x1, .f32⟩
  | .hbm, ⟨17, _⟩ => ⟨S131072x1, .f32⟩
  | .hbm, ⟨18, _⟩ => ⟨S131072x128, .f32⟩
  | .hbm, ⟨19, _⟩ => ⟨S131072x128, .f32⟩
  | .hbm, ⟨20, _⟩ => ⟨S131072x128, .f32⟩
  | .hbm, ⟨21, _⟩ => ⟨S131072x128, .f32⟩
  | .hbm, ⟨22, _⟩ => ⟨S131072x128, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S131072x128, .f32⟩
  | .hbm, ⟨27, _⟩ => ⟨S131072x128, .f32⟩
  | .hbm, ⟨28, _⟩ => ⟨S_, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S131072x128, .f32⟩
  | .hbm, ⟨35, _⟩ => ⟨S4096x4096, .f32⟩
  | .hbm, ⟨36, _⟩ => ⟨S_, .f32⟩
  | .hbm, ⟨37, _⟩ => ⟨S4x2048, .f32⟩
  | .hbm, ⟨38, _⟩ => ⟨S4x2048x1, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S4x2048x1, .f32⟩
  | .hbm, ⟨43, _⟩ => ⟨S_, .f32⟩
  | .hbm, ⟨44, _⟩ => ⟨S4x2048x1, .f32⟩
  | .hbm, ⟨45, _⟩ => ⟨S4x2048x1, .f32⟩
  | .hbm, ⟨46, _⟩ => ⟨S4x2048x1, .f32⟩
  | .hbm, ⟨47, _⟩ => ⟨S4x2048x1, .f32⟩
  | .hbm, ⟨48, _⟩ => ⟨S_, .f32⟩
  | .hbm, ⟨49, _⟩ => ⟨S4x2048x1, .f32⟩
  | .hbm, ⟨50, _⟩ => ⟨S4x2048x1, .f32⟩
  | .hbm, ⟨51, _⟩ => ⟨S4x2048x4096, .f32⟩
  | .hbm, ⟨52, _⟩ => ⟨S4x2048x4096, .f32⟩
  | .hbm, ⟨53, _⟩ => ⟨S4x2048x4096, .f32⟩
  | .hbm, ⟨54, _⟩ => ⟨S4x2048x4096, .f32⟩
  | .hbm, ⟨55, _⟩ => ⟨S4x2048x4096, .f32⟩
  | .hbm, ⟨56, _⟩ => ⟨S_, .i32⟩
  | .hbm, ⟨57, _⟩ => ⟨S_, .i32⟩
  | .hbm, ⟨58, _⟩ => ⟨S_, .f32⟩
  | .hbm, ⟨59, _⟩ => ⟨S4x2048x4096, .f32⟩
  | .hbm, ⟨60, _⟩ => ⟨S4x2048x4096, .f32⟩
  | .hbm, ⟨61, _⟩ => ⟨S_, .f32⟩
  | .hbm, ⟨62, _⟩ => ⟨S4x2048x4096, .f32⟩
  | .hbm, ⟨63, _⟩ => ⟨S4x2048x4096, .f32⟩
  | .hbm, ⟨64, _⟩ => ⟨S4x2048x4096, .f32⟩
  | .hbm, ⟨65, _⟩ => ⟨S4x2048x4096, .f32⟩
  | .hbm, ⟨66, _⟩ => ⟨S4x2048x4096, .f32⟩
  | .hbm, ⟨67, _⟩ => ⟨S4x2048x4096, .f32⟩
  | .hbm, ⟨68, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_c_3 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_c_9 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]

class Facts₀ : Prop where
  shapeCasts_S4096x4096_S131072x128 : S4096x4096.ShapeCasts S131072x128
  reducesTo_S131072x128_S131072_d1 : S131072x128.ReducesTo [1] S131072
  h_S_ : 0 < S_.numel
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  shapeCasts_S131072x128_S4096x4096 : S131072x128.ShapeCasts S4096x4096
  reducesTo_S4x2048x4096_S4x2048_d2 : S4x2048x4096.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x4096_0_1_2 : S4x2048x1.BroadcastsInDim S4x2048x4096 (![0, 1, 2] : Fin 3 → Fin S4x2048x4096.rank)
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelRun.lean ====
/-
  The idealized kernel's run with its result named.  @main is three pipelined regions between two reshapes; every
  weakly fair execution ends with every unscoped buffer at the last boundary's contents, so in particular the result
  buffer holds the last boundary's contents there, and the two argument arrays are as launched.
-/
import proofs.«162214_j1812476199311_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents and the arguments as launched. -/
theorem run_last : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c)⟩)

end Cert.KernelIdeal.KRun

end
-- ==== Proof.LibRowQuant.lean ====
/-
  Row-wise quantize–dequantize, read at an index, at the ideal (extended-real) values.

  General lemmas, independent of any program:
  * a minimum / maximum reduction over the LAST axis of a rank-2 or rank-3 array — a kernel's
    `vector.multi_reduction` or a host `stablehlo.reduce` — is, at a row, the fold of `min` / `max` from the initial value
    over that row's entries (in any order: `min` and `max` commute and associate);
  * the keepdims column forms of the layout operations: a vector [a] cast to a column [a, 1], and a column [a, 1]
    broadcast over the columns of [a, b];
  * the asymmetric quantize–dequantize step `qdq`: with `scale = (vmax − vmin) / levels` and
    `zero = zlo − round (vmin / scale)`, an entry `x` goes to
    `(clamp (round (x / scale) + zero) − zero) · scale`; and the vector program computing it row by row
    (`qdqVec`) read at an entry (`qdqVec_apply`).
-/
import Idealize.ShloMosaic.PureOps.Ideal.Laws
import Idealize.ShloMosaic.Lib.ValueIdx
import Idealize.ShloMosaic.Lib.Pipeline.Value

noncomputable section

namespace Cert.RowQuant

open Idealize.ShloMosaic Idealize.ShloMosaic.ValueIdx

/-! ## The reduced index with the last coordinate put back -/

theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

theorem lift_row3 {a b d : ℕ} (h : (⟨3, ![a, b, d]⟩ : Shape).Reduces [2] (⟨2, ![a, b]⟩ : Shape)) (p : Fin a) (q : Fin b)
    (k : Fin ((⟨3, ![a, b, d]⟩ : Shape).size 2)) : h.lift (ix2 p q) k = ix3 p q (⟨k.val, k.isLt⟩ : Fin d) := by
  funext c; apply Fin.ext
  fin_cases c <;> rfl

/-! ## Minimum and maximum over the last axis, as folds over the row -/

variable {φ : FTy}

/-- A `vector.multi_reduction <minimumf>` over one axis: the fold of `min` from the accumulator's value over that
    axis's coordinates. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

theorem kernel_rowMin {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_single]
  have hf : (src ∘ h.lift (ix1 r)) = fun k : Fin b => src (ix2 r k) := funext fun k => congrArg src (lift_row h r k)
  exact congrArg (fun f => Finset.fold min (Ideal.ofBits φ acc) f (Finset.univ : Finset (Fin b))) hf

theorem kernel_rowMax {a b : ℕ} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  have hf : (src ∘ h.lift (ix1 r)) = fun k : Fin b => src (ix2 r k) := funext fun k => congrArg src (lift_row h r k)
  exact congrArg (fun f => Finset.fold max (Ideal.ofBits φ acc) f (Finset.univ : Finset (Fin b))) hf

/-- The host's reduce with a minimum body over the columns of a matrix, at row `r`. -/
theorem host_rowMin {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.minimumf x init h' hu (ix1 r)
      = (Finset.univ : Finset (Fin b)).fold min (init (Shape.Idx.first hu)) (fun k => x (ix2 r k)) := by
  rw [Host.reduce_eq_fold_single FloatOps.minimumf x _ h' h hu]
  have hf : (x ∘ h.lift (ix1 r)) = fun k : Fin b => x (ix2 r k) := funext fun k => congrArg x (lift_row h r k)
  exact congrArg (fun f => Finset.fold min (init (Shape.Idx.first hu)) f (Finset.univ : Finset (Fin b))) hf

theorem host_rowMax {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x _ h' h hu]
  have hf : (x ∘ h.lift (ix1 r)) = fun k : Fin b => x (ix2 r k) := funext fun k => congrArg x (lift_row h r k)
  exact congrArg (fun f => Finset.fold max (init (Shape.Idx.first hu)) f (Finset.univ : Finset (Fin b))) hf

/-- The same over the last axis of a rank-3 array, at `(p, q)`. -/
theorem host_rowMin3 {a b d : ℕ} {u : Shape} (x : FVec Ideal ⟨3, ![a, b, d]⟩ φ) (init : u.Idx → Ideal φ)
    (h' : (⟨3, ![a, b, d]⟩ : Shape).ReducesTo [2] (⟨2, ![a, b]⟩ : Shape))
    (h : (⟨3, ![a, b, d]⟩ : Shape).Reduces [2] (⟨2, ![a, b]⟩ : Shape)) (hu : 0 < u.numel) (p : Fin a) (q : Fin b) :
    Host.reduce FloatOps.minimumf x init h' hu (ix2 p q)
      = (Finset.univ : Finset (Fin d)).fold min (init (Shape.Idx.first hu)) (fun k => x (ix3 p q k)) := by
  rw [Host.reduce_eq_fold_single FloatOps.minimumf x _ h' h hu]
  have hf : (x ∘ h.lift (ix2 p q)) = fun k : Fin d => x (ix3 p q k) := funext fun k => congrArg x (lift_row3 h p q k)
  exact congrArg (fun f => Finset.fold min (init (Shape.Idx.first hu)) f (Finset.univ : Finset (Fin d))) hf

theorem host_rowMax3 {a b d : ℕ} {u : Shape} (x : FVec Ideal ⟨3, ![a, b, d]⟩ φ) (init : u.Idx → Ideal φ)
    (h' : (⟨3, ![a, b, d]⟩ : Shape).ReducesTo [2] (⟨2, ![a, b]⟩ : Shape))
    (h : (⟨3, ![a, b, d]⟩ : Shape).Reduces [2] (⟨2, ![a, b]⟩ : Shape)) (hu : 0 < u.numel) (p : Fin a) (q : Fin b) :
    Host.reduce FloatOps.maximumf x init h' hu (ix2 p q)
      = (Finset.univ : Finset (Fin d)).fold max (init (Shape.Idx.first hu)) (fun k => x (ix3 p q k)) := by
  rw [Host.reduce_eq_fold_single FloatOps.maximumf x _ h' h hu]
  have hf : (x ∘ h.lift (ix2 p q)) = fun k : Fin d => x (ix3 p q k) := funext fun k => congrArg x (lift_row3 h p q k)
  exact congrArg (fun f => Finset.fold max (init (Shape.Idx.first hu)) f (Finset.univ : Finset (Fin d))) hf

/-! ## The keepdims column forms -/

variable {α : Type}

/-- An `[a]` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The quantize–dequantize step -/

/-- One entry `x` of a row whose least and greatest entries are `vmin` and `vmax`, quantized to the integer grid of step
    `scale = (vmax − vmin) / lvl` shifted by `zero = zlo − round (vmin / scale)`, clamped to `[clo, chi]`, and mapped back. -/
def qdq (lvl zlo clo chi vmin vmax x : EReal) : EReal :=
  (min chi (max clo (Ideal.liftRound Ideal.roundHalfEven (Ideal.div x (Ideal.div (vmax - vmin) lvl))
        + (zlo - Ideal.liftRound Ideal.roundHalfEven (Ideal.div vmin (Ideal.div (vmax - vmin) lvl)))))
      - (zlo - Ideal.liftRound Ideal.roundHalfEven (Ideal.div vmin (Ideal.div (vmax - vmin) lvl))))
    * Ideal.div (vmax - vmin) lvl

/-- The vector program: the rows' minima `A` and maxima `B` as columns, the scale and the zero point as columns, both
    broadcast over the row, the entries quantized, clamped and mapped back. -/
def qdqVec {a b : ℕ} (hsc : (⟨1, ![a]⟩ : Shape).ShapeCasts ⟨2, ![a, 1]⟩) (hbc : (⟨2, ![a, 1]⟩ : Shape).Broadcasts ⟨2, ![a, b]⟩)
    (lvl zlo clo chi : Ideal .f32) (A B : FVec Ideal ⟨1, ![a]⟩ .f32) (x : FVec Ideal ⟨2, ![a, b]⟩ .f32) :
    FVec Ideal ⟨2, ![a, b]⟩ .f32 :=
  have v2 : FVec Ideal ⟨2, ![a, 1]⟩ .f32 := shapeCast ⟨2, ![a, 1]⟩ A hsc
  have v4 : FVec Ideal ⟨2, ![a, 1]⟩ .f32 := shapeCast ⟨2, ![a, 1]⟩ B hsc
  have v7 : FVec Ideal ⟨2, ![a, 1]⟩ .f32 := divf (subf v4 v2) (broadcast ⟨2, ![a, 1]⟩ lvl)
  have v11 : FVec Ideal ⟨2, ![a, 1]⟩ .f32 := subf (broadcast ⟨2, ![a, 1]⟩ zlo) (roundeven (divf v2 v7))
  have v12 : FVec Ideal ⟨2, ![a, b]⟩ .f32 := broadcastTo ⟨2, ![a, b]⟩ v7 hbc
  have v15 : FVec Ideal ⟨2, ![a, b]⟩ .f32 := broadcastTo ⟨2, ![a, b]⟩ v11 hbc
  mulf (subf (minimumf (broadcast ⟨2, ![a, b]⟩ chi) (maximumf (broadcast ⟨2, ![a, b]⟩ clo) (addf (roundeven (divf x v12)) v15))) v15) v12

theorem qdqVec_apply {a b : ℕ} (hsc : (⟨1, ![a]⟩ : Shape).ShapeCasts ⟨2, ![a, 1]⟩) (hbc : (⟨2, ![a, 1]⟩ : Shape).Broadcasts ⟨2, ![a, b]⟩)
    (lvl zlo clo chi : Ideal .f32) (A B : FVec Ideal ⟨1, ![a]⟩ .f32) (x : FVec Ideal ⟨2, ![a, b]⟩ .f32) (r : Fin a) (q : Fin b) :
    qdqVec hsc hbc lvl zlo clo chi A B x (ix2 r q) = qdq lvl zlo clo chi (A (ix1 r)) (B (ix1 r)) (x (ix2 r q)) := by
  unfold qdqVec
  show (min chi (max clo (Ideal.liftRound Ideal.roundHalfEven (Ideal.div (x (ix2 r q)) (broadcastTo ⟨2, ![a, b]⟩ _ hbc (ix2 r q)))
        + broadcastTo ⟨2, ![a, b]⟩ _ hbc (ix2 r q))) - broadcastTo ⟨2, ![a, b]⟩ _ hbc (ix2 r q)) * broadcastTo ⟨2, ![a, b]⟩ _ hbc (ix2 r q) = _
  rw [broadcastTo_a1_ab_apply, broadcastTo_a1_ab_apply]
  show (min chi (max clo (Ideal.liftRound Ideal.roundHalfEven (Ideal.div (x (ix2 r q))
          (Ideal.div (shapeCast ⟨2, ![a, 1]⟩ B hsc (ix2 r (0 : Fin 1)) - shapeCast ⟨2, ![a, 1]⟩ A hsc (ix2 r (0 : Fin 1))) lvl))
        + (zlo - Ideal.liftRound Ideal.roundHalfEven (Ideal.div (shapeCast ⟨2, ![a, 1]⟩ A hsc (ix2 r (0 : Fin 1)))
            (Ideal.div (shapeCast ⟨2, ![a, 1]⟩ B hsc (ix2 r (0 : Fin 1)) - shapeCast ⟨2, ![a, 1]⟩ A hsc (ix2 r (0 : Fin 1))) lvl)))))
      - (zlo - Ideal.liftRound Ideal.roundHalfEven (Ideal.div (shapeCast ⟨2, ![a, 1]⟩ A hsc (ix2 r (0 : Fin 1)))
            (Ideal.div (shapeCast ⟨2, ![a, 1]⟩ B hsc (ix2 r (0 : Fin 1)) - shapeCast ⟨2, ![a, 1]⟩ A hsc (ix2 r (0 : Fin 1))) lvl))))
      * Ideal.div (shapeCast ⟨2, ![a, 1]⟩ B hsc (ix2 r (0 : Fin 1)) - shapeCast ⟨2, ![a, 1]⟩ A hsc (ix2 r (0 : Fin 1))) lvl = _
  rw [shapeCast_a_a1_apply, shapeCast_a_a1_apply]
  rfl

/-- The same step spelt with the host's operations (the host's quotient and rounding are the kernel's at the ideal values). -/
theorem qdq_host (lvl zlo clo chi A B X : Ideal .f32) :
    FloatOps.mulf
        (FloatOps.subf
          (FloatOps.minimumf chi (FloatOps.maximumf clo
            (FloatOps.addf (FloatOps.hostUnary .roundeven (FloatOps.hostDivf X (FloatOps.hostDivf (FloatOps.subf B A) lvl)))
              (FloatOps.subf zlo (FloatOps.hostUnary .roundeven (FloatOps.hostDivf A (FloatOps.hostDivf (FloatOps.subf B A) lvl)))))))
          (FloatOps.subf zlo (FloatOps.hostUnary .roundeven (FloatOps.hostDivf A (FloatOps.hostDivf (FloatOps.subf B A) lvl)))))
        (FloatOps.hostDivf (FloatOps.subf B A) lvl)
      = qdq lvl zlo clo chi A B X := rfl

end Cert.RowQuant

end
-- ==== Proof.Spec.lean ====
/-
  What the program computes, as functions of the two argument arrays, over literal shapes.

  The weights `w : [4096, 4096]` are quantized to 4 bits in groups of 128 consecutive entries of a row and mapped
  back (`Wq`): the group of entry `(n, k)` is the entries `(n, 128·⌊k/128⌋ + j)`, `j < 128`.
  The activations, flattened to `[8192, 4096]`, are quantized to 8 bits row by row and mapped back (`Xq`).
  The result is the product of the two over the shared last axis (`MM`), `∑ₖ Xq (r, k) · Wq (n, k)`, cast back to
  `[4, 2048, 4096]` (`Y`).
-/
import proofs.«162214_j1812476199311_1_alg».proof.Proof.LibRowQuant

noncomputable section

namespace Cert.Spec

open Idealize.ShloMosaic Idealize.ShloMosaic.ValueIdx Cert.RowQuant

abbrev SX3 : Shape := ⟨3, ![4, 2048, 4096]⟩
abbrev SX2 : Shape := ⟨2, ![8192, 4096]⟩
abbrev SW : Shape := ⟨2, ![4096, 4096]⟩

/-- The least and the greatest of `n` values, folded from +∞ and from −∞ (the two f32 patterns). -/
def least {n : ℕ} (f : Fin n → EReal) : EReal := (Finset.univ : Finset (Fin n)).fold min (Ideal.ofBits .f32 0x7F800000#32) f
def greatest {n : ℕ} (f : Fin n → EReal) : EReal := (Finset.univ : Finset (Fin n)).fold max (Ideal.ofBits .f32 0xFF800000#32) f

/-- 4-bit weights: 15 steps between the group's extremes, integers clamped to [−8, 7]. -/
def qdqW (vmin vmax x : EReal) : EReal :=
  qdq (Ideal.ofBits .f32 0x41700000#32) (Ideal.ofBits .f32 0xC1000000#32)
    (((4294967288#32 : BitVec 32).toInt : ℝ) : EReal) (((7#32 : BitVec 32).toInt : ℝ) : EReal) vmin vmax x

/-- 8-bit activations: 255 steps between the row's extremes, integers clamped to [−128, 127]. -/
def qdqX (vmin vmax x : EReal) : EReal :=
  qdq (Ideal.ofBits .f32 0x437F0000#32) (Ideal.ofBits .f32 0xC3000000#32)
    (((4294967168#32 : BitVec 32).toInt : ℝ) : EReal) (((127#32 : BitVec 32).toInt : ℝ) : EReal) vmin vmax x

/-- Column `j` of the group of 128 columns that column `k` lies in. -/
def grp (k : Fin 4096) (j : Fin 128) : Fin 4096 := ⟨128 * (k.val / 128) + j.val, by have := k.isLt; have := j.isLt; omega⟩

def WqAt (w : SW.Idx → EReal) (n k : Fin 4096) : EReal :=
  qdqW (least fun j : Fin 128 => w (ix2 n (grp k j))) (greatest fun j : Fin 128 => w (ix2 n (grp k j))) (w (ix2 n k))

def Wq (w : SW.Idx → EReal) : SW.Idx → EReal := fun i => WqAt w ⟨(i 0).val, (i 0).isLt⟩ ⟨(i 1).val, (i 1).isLt⟩

def XqAt (x : SX2.Idx → EReal) (r : Fin 8192) (k : Fin 4096) : EReal :=
  qdqX (least fun j : Fin 4096 => x (ix2 r j)) (greatest fun j : Fin 4096 => x (ix2 r j)) (x (ix2 r k))

def Xq (x : SX2.Idx → EReal) : SX2.Idx → EReal := fun i => XqAt x ⟨(i 0).val, (i 0).isLt⟩ ⟨(i 1).val, (i 1).isLt⟩

def MMAt (a : SX2.Idx → EReal) (b : SW.Idx → EReal) (r : Fin 8192) (n : Fin 4096) : EReal :=
  ∑ k : Fin 4096, a (ix2 r k) * b (ix2 n k)

def MM (a : SX2.Idx → EReal) (b : SW.Idx → EReal) : SX2.Idx → EReal :=
  fun i => MMAt a b ⟨(i 0).val, (i 0).isLt⟩ ⟨(i 1).val, (i 1).isLt⟩

/-- The whole result, from the two argument arrays. -/
def Y (h1 : SX3.ShapeCasts SX2) (h2 : SX2.ShapeCasts SX3) (x : SX3.Idx → EReal) (w : SW.Idx → EReal) : SX3.Idx → EReal :=
  shapeCast SX3 (MM (Xq (shapeCast SX2 x h1)) (Wq w)) h2

theorem Wq_ix2 (w : SW.Idx → EReal) (n k : Fin 4096) : Wq w (ix2 n k) = WqAt w n k := rfl
theorem Xq_ix2 (x : SX2.Idx → EReal) (r : Fin 8192) (k : Fin 4096) : Xq x (ix2 r k) = XqAt x r k := rfl
theorem MM_ix2 (a : SX2.Idx → EReal) (b : SW.Idx → EReal) (r : Fin 8192) (n : Fin 4096) : MM a b (ix2 r n) = MMAt a b r n := rfl

/-- The flattened activations at row `2048·b + m` are the activations at `(b, m)`. -/
theorem flat_apply (h1 : SX3.ShapeCasts SX2) (x : SX3.Idx → EReal) (b : Fin 4) (m : Fin 2048) (k : Fin 4096) :
    shapeCast SX2 x h1 (ix2 (⟨2048 * b.val + m.val, by have := b.isLt; have := m.isLt; omega⟩ : Fin 8192) k) = x (ix3 b m k) :=
  shapeCast_apply x h1 _ _ (by
    rw [Shape.rowMajor_val_two, Shape.rowMajor_val_three]
    show (b.val * 2048 + m.val) * 4096 + k.val = (2048 * b.val + m.val) * 4096 + k.val
    omega)

/-- The result at `(b, m, n)` is the flat product at row `2048·b + m`. -/
theorem unflat_apply (h2 : SX2.ShapeCasts SX3) (y : SX2.Idx → EReal) (b : Fin 4) (m : Fin 2048) (n : Fin 4096) :
    shapeCast SX3 y h2 (ix3 b m n) = y (ix2 (⟨2048 * b.val + m.val, by have := b.isLt; have := m.isLt; omega⟩ : Fin 8192) n) :=
  shapeCast_apply y h2 _ _ (by
    rw [Shape.rowMajor_val_two, Shape.rowMajor_val_three]
    show (2048 * b.val + m.val) * 4096 + n.val = (b.val * 2048 + m.val) * 4096 + n.val
    omega)

end Cert.Spec

end
-- ==== Proof.KBody.lean ====
/-
  The three kernel bodies' stored values, read at an entry of the block.

  The weight body stores, at `(r, q)` of a `[4096, 128]` block, the 4-bit quantize–dequantize of the entry against
  the least and greatest entries of row `r` of the block; the activation body the 8-bit one on a `[256, 4096]`
  block; the product body stores at `(r, q)` the sum over `k` of `a (r, k) · b (q, k)`.
-/
import proofs.«162214_j1812476199311_1_alg».proof.Proof.Gen.KernelIdeal.Skeleton
import proofs.«162214_j1812476199311_1_alg».proof.Proof.Spec

noncomputable section

namespace Cert.KernelIdeal.KBody

open Idealize.ShloMosaic Idealize.ShloMosaic.ValueIdx Cert.RowQuant Cert.Spec
open Cert.KernelIdeal Cert.KernelIdeal.Gen

/-! ## The weight body -/

theorem pay0_vec (x0 : Vec Ideal S4096x128 .f32) :
    (k0_pay1 (F := Ideal) x0 : S4096x128.Idx → EReal)
      = qdqVec shapeCasts_S4096_S4096x1 broadcasts_S4096x1_S4096x128
          (Ideal.ofBits .f32 0x41700000#32) (Ideal.ofBits .f32 0xC1000000#32)
          (((4294967288#32 : BitVec 32).toInt : ℝ) : EReal) (((7#32 : BitVec 32).toInt : ℝ) : EReal)
          (multiReduction .minimumf [1] S4096 x0 0x7F800000#32 reduces_S4096x128_S4096 (.inl rfl) rfl)
          (multiReduction .maximumf [1] S4096 x0 0xFF800000#32 reduces_S4096x128_S4096 (.inl rfl) rfl) x0 := rfl

theorem pay0_apply (x0 : Vec Ideal S4096x128 .f32) (r : Fin 4096) (q : Fin 128) :
    (k0_pay1 (F := Ideal) x0 : S4096x128.Idx → EReal) (ix2 r q)
      = qdqW (least fun k : Fin 128 => x0 (ix2 r k)) (greatest fun k : Fin 128 => x0 (ix2 r k)) (x0 (ix2 r q)) := by
  rw [pay0_vec, qdqVec_apply]
  refine congrArg₂ (fun a b => qdqW a b (x0 (ix2 r q))) ?_ ?_
  · exact kernel_rowMin (a := 4096) (b := 128) x0 _ _ _ _ r
  · exact kernel_rowMax (a := 4096) (b := 128) x0 _ _ _ _ r

/-! ## The activation body -/

theorem pay1_vec (x0 : Vec Ideal S256x4096 .f32) :
    (k1_pay1 (F := Ideal) x0 : S256x4096.Idx → EReal)
      = qdqVec shapeCasts_S256_S256x1 broadcasts_S256x1_S256x4096
          (Ideal.ofBits .f32 0x437F0000#32) (Ideal.ofBits .f32 0xC3000000#32)
          (((4294967168#32 : BitVec 32).toInt : ℝ) : EReal) (((127#32 : BitVec 32).toInt : ℝ) : EReal)
          (multiReduction .minimumf [1] S256 (shapeCast S256x4096 x0 shapeCasts_S256x4096_S256x4096) 0x7F800000#32 reduces_S256x4096_S256 (.inl rfl) rfl)
          (multiReduction .maximumf [1] S256 (shapeCast S256x4096 x0 shapeCasts_S256x4096_S256x4096) 0xFF800000#32 reduces_S256x4096_S256 (.inl rfl) rfl)
          (shapeCast S256x4096 x0 shapeCasts_S256x4096_S256x4096) := rfl

theorem pay1_apply (x0 : Vec Ideal S256x4096 .f32) (r : Fin 256) (q : Fin 4096) :
    (k1_pay1 (F := Ideal) x0 : S256x4096.Idx → EReal) (ix2 r q)
      = qdqX (least fun k : Fin 4096 => x0 (ix2 r k)) (greatest fun k : Fin 4096 => x0 (ix2 r k)) (x0 (ix2 r q)) := by
  rw [pay1_vec]
  have e : shapeCast S256x4096 x0 shapeCasts_S256x4096_S256x4096 = x0 := shapeCast_self x0 _
  rw [e, qdqVec_apply]
  refine congrArg₂ (fun a b => qdqX a b (x0 (ix2 r q))) ?_ ?_
  · exact kernel_rowMin (a := 256) (b := 4096) x0 _ _ _ _ r
  · exact kernel_rowMax (a := 256) (b := 4096) x0 _ _ _ _ r

/-! ## The product body -/

theorem lhs2_0 (i : S1024x512.Idx) (q : dot_S1024x4096_S512x4096_S1024x512_1_1_0_0_n_n.contr.Idx) :
    (dot_S1024x4096_S512x4096_S1024x512_1_1_0_0_n_n.lhsIdx i q 0).val = (i 0).val := by
  unfold DotDims.lhsIdx
  rw [dif_neg (show ¬(0 : Fin S1024x4096.rank) ∈ dot_S1024x4096_S512x4096_S1024x512_1_1_0_0_n_n.lhsBatch by decide), dif_pos (show (0 : Fin S1024x4096.rank) ∈ dot_S1024x4096_S512x4096_S1024x512_1_1_0_0_n_n.lhsNonContracting by decide)]
  rfl
theorem lhs2_1 (i : S1024x512.Idx) (q : dot_S1024x4096_S512x4096_S1024x512_1_1_0_0_n_n.contr.Idx) :
    (dot_S1024x4096_S512x4096_S1024x512_1_1_0_0_n_n.lhsIdx i q 1).val = (q ⟨0, by decide⟩).val :=
  dot_S1024x4096_S512x4096_S1024x512_1_1_0_0_n_n.lhsIdx_val_of_single rfl i q
theorem rhs2_0 (i : S1024x512.Idx) (q : dot_S1024x4096_S512x4096_S1024x512_1_1_0_0_n_n.contr.Idx) :
    (dot_S1024x4096_S512x4096_S1024x512_1_1_0_0_n_n.rhsIdx i q 0).val = (i 1).val := by
  unfold DotDims.rhsIdx
  rw [dif_neg (show ¬(0 : Fin S512x4096.rank) ∈ dot_S1024x4096_S512x4096_S1024x512_1_1_0_0_n_n.rhsBatch by decide), dif_pos (show (0 : Fin S512x4096.rank) ∈ dot_S1024x4096_S512x4096_S1024x512_1_1_0_0_n_n.rhsNonContracting by decide)]
  rfl
theorem rhs2_1 (i : S1024x512.Idx) (q : dot_S1024x4096_S512x4096_S1024x512_1_1_0_0_n_n.contr.Idx) :
    (dot_S1024x4096_S512x4096_S1024x512_1_1_0_0_n_n.rhsIdx i q 1).val = (q ⟨0, by decide⟩).val :=
  dot_S1024x4096_S512x4096_S1024x512_1_1_0_0_n_n.rhsIdx_val_of_single rfl i q

theorem pay2_vec (x0 : Vec Ideal S1024x4096 .bf16) (x1 : Vec Ideal S512x4096 .bf16) :
    k2_pay1 (F := Ideal) x0 x1
      = matmul (φ₁ := .bf16) (φ₂ := .bf16) dot_S1024x4096_S512x4096_S1024x512_1_1_0_0_n_n none
          (shapeCast S1024x4096 x0 shapeCasts_S1024x4096_S1024x4096) (shapeCast S512x4096 x1 shapeCasts_S512x4096_S512x4096)
          (constant S1024x512 .f32 0x00000000#32) := rfl

theorem pay2_apply (x0 : Vec Ideal S1024x4096 .bf16) (x1 : Vec Ideal S512x4096 .bf16) (r : Fin 1024) (q : Fin 512) :
    k2_pay1 (F := Ideal) x0 x1 (ix2 r q) = ∑ k : Fin 4096, x0 (ix2 r k) * x1 (ix2 q k) := by
  rw [pay2_vec]
  have e0 : shapeCast S1024x4096 x0 shapeCasts_S1024x4096_S1024x4096 = x0 := shapeCast_self x0 _
  have e1 : shapeCast S512x4096 x1 shapeCasts_S512x4096_S512x4096 = x1 := shapeCast_self x1 _
  rw [e0, e1]
  simp only [matmul]
  rw [Ideal.matmul_constant_zero_apply, ← Equiv.sum_comp (contrEquiv1 dot_S1024x4096_S512x4096_S1024x512_1_1_0_0_n_n 4096 rfl rfl).symm]
  refine Finset.sum_congr rfl fun k _ => ?_
  have hk := contrEquiv1_symm_val dot_S1024x4096_S512x4096_S1024x512_1_1_0_0_n_n 4096 rfl rfl k
  have el : dot_S1024x4096_S512x4096_S1024x512_1_1_0_0_n_n.lhsIdx (ix2 r q) ((contrEquiv1 dot_S1024x4096_S512x4096_S1024x512_1_1_0_0_n_n 4096 rfl rfl).symm k) = ix2 r k := funext fun a => Fin.ext (by
    match a with
    | ⟨0, _⟩ => exact lhs2_0 _ _
    | ⟨1, _⟩ => exact (lhs2_1 _ _).trans hk)
  have er : dot_S1024x4096_S512x4096_S1024x512_1_1_0_0_n_n.rhsIdx (ix2 r q) ((contrEquiv1 dot_S1024x4096_S512x4096_S1024x512_1_1_0_0_n_n 4096 rfl rfl).symm k) = ix2 q k := funext fun a => Fin.ext (by
    match a with
    | ⟨0, _⟩ => exact rhs2_0 _ _
    | ⟨1, _⟩ => exact (rhs2_1 _ _).trans hk)
  rw [el, er]

end Cert.KernelIdeal.KBody

end
-- ==== Proof.Region0.lean ====
/-
  The first region (the weights): the array it leaves.

  The grid has 32 points; point `t` reads the block of columns `128·t … 128·t + 127` (all 4096 rows) of the weights
  and writes the same block of the output.  Row `r` of that block is exactly one quantization group of row `r` of
  the weights, so what point `t` writes back is its block of the whole-array function `Wq`; the 32 blocks tile the
  array, hence the array ends at `Wq` of the weights as the region found them.
-/
import proofs.«162214_j1812476199311_1_alg».proof.Proof.Gen.KernelIdeal.Frame
import proofs.«162214_j1812476199311_1_alg».proof.Proof.KBody

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.KBody Cert.Spec

variable (V : (c : Dev nD) → (b : Ref sig .tc) → Buf (Elt Ideal) ((c : Thread nD τ).loc b))

theorem hz : (![0, 0] : Fin 2 → Nat) = fun _ => 0 := funext fun a => by fin_cases a <;> rfl

/-- Both windows' blocks at point `t`: all rows, column block `t`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- The body's value on a block `x0` that holds columns `128·tt …` of `w`, at a block entry `j` sitting at `i` in the
    array, is `Wq w` there: the block's row is the entry's whole quantization group. -/
theorem block_eq (w : SW.Idx → EReal) (x0 : S4096x128.Idx → EReal) (tt : ℕ) (ht : tt < 32)
    (hx : ∀ (r : Fin 4096) (k : Fin 128), x0 (ix2 r k) = w (ix2 r (⟨128 * tt + k.val, by have := k.isLt; omega⟩ : Fin 4096)))
    (j : S4096x128.Idx) (i : SW.Idx) (hi0 : (i 0).val = (j 0).val) (hi1 : (i 1).val = 128 * tt + (j 1).val) :
    (k0_pay1 (F := Ideal) x0 : S4096x128.Idx → EReal) j = Wq w i := by
  obtain ⟨r, q, rfl⟩ : ∃ (r : Fin 4096) (q : Fin 128), j = ix2 r q := ⟨j 0, j 1, eq_ix2 j⟩
  obtain ⟨n, k, rfl⟩ : ∃ (n : Fin 4096) (k : Fin 4096), i = ix2 n k := ⟨i 0, i 1, eq_ix2 i⟩
  have hn : n = r := Fin.ext hi0
  have hk : k.val = 128 * tt + q.val := hi1
  subst hn
  rw [pay0_apply, Wq_ix2]
  unfold WqAt
  have hq := q.isLt
  have hg : ∀ k' : Fin 128, x0 (ix2 n k') = w (ix2 n (grp k k')) := fun k' => by
    rw [hx]
    refine congrArg (fun z => w (ix2 n z)) (Fin.ext ?_)
    show 128 * tt + k'.val = 128 * (k.val / 128) + k'.val
    have := k'.isLt
    omega
  have hxq : x0 (ix2 n q) = w (ix2 n k) := by
    rw [hx]
    exact congrArg (fun z => w (ix2 n z)) (Fin.ext hk.symm)
  rw [funext hg, hxq]

/-- Input window 0's block at point `t`, entry by entry. -/
theorem iblk_read (c : Dev nD) (t : Fin cfg0.N) (r : Fin 4096) (k : Fin 128) :
    iblk0 V c 0 t (ix2 r k) = V c main_arg1 (ix2 r (⟨128 * t.val + k.val, by have := k.isLt; have := t.isLt; have h : cfg0.N = 32 := N_0; show 128 * t.val + k.val < 4096; omega⟩ : Fin 4096)) := by
  show V c main_arg1 (((cfg0.win 0).blk t).view.emb (ix2 r k)) = V c main_arg1 _
  obtain ⟨e0, e1, -, -⟩ := idx_facts t
  refine congrArg (V c main_arg1) (funext fun a => Fin.ext ?_)
  match a with
  | ⟨0, _⟩ => show win0_0.index t (0 : Fin 2) * 4096 + 1 * r.val = r.val; omega
  | ⟨1, _⟩ => show win0_0.index t (1 : Fin 2) * 128 + 1 * k.val = 128 * t.val + k.val; omega

/-- What point `t` writes back is block `t` of `Wq` of the weights as the region finds them. -/
theorem flushed_eq (c : Dev nD) (t : Fin cfg0.N) :
    (dat0 (F := Ideal) V c).flushed 1 t = ((cfg0.win 1).blk t).view.read (Elt Ideal) (Wq (V c main_arg1)) := by
  show (cfg0.win 1).cut (grid0.coords t) ((dat0 (F := Ideal) V c).after 1 t) = _
  rw [after0_1]
  unfold out0_1
  rw [View.canon_unit_zero hz]
  simp only [View.ld_unit_zero (S := S4096x128) hz]
  obtain ⟨-, -, e2, e3⟩ := idx_facts t
  have ht : t.val < 32 := by have := t.isLt; have h : cfg0.N = 32 := N_0; omega
  funext j
  refine block_eq (V c main_arg1) (iblk0 V c 0 t) t.val ht (fun r k => iblk_read V c t r k) j (((cfg0.win 1).blk t).view.emb j) ?_ ?_
  · show win0_1.index t (0 : Fin 2) * 4096 + 1 * (j 0).val = (j 0).val; omega
  · show win0_1.index t (1 : Fin 2) * 128 + 1 * (j 1).val = 128 * t.val + (j 1).val; omega

theorem mem_blk (t : Fin cfg0.N) (i : S4096x4096.Idx) :
    i ∈ ((cfg0.win 1).blk t).view.set ↔ ∀ a : Fin 2, win0_1.index t a * S4096x128.size a ≤ (i a).val ∧ (i a).val < win0_1.index t a * S4096x128.size a + S4096x128.size a := by
  show i ∈ ((View.whole main_v0).slice (win0_1.rect t)).set ↔ _
  rw [View.set_slice_whole, Rect.mem_set_unit]
  exact Iff.rfl

/-- Every entry of the output lies in the block of the point numbered by its column group. -/
theorem cover (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  have hN : grid0.N = 32 := N_0
  let t : Fin cfg0.N := ⟨(i 1).val / 128, by show (i 1).val / 128 < grid0.N; omega⟩
  have htv : t.val = (i 1).val / 128 := rfl
  obtain ⟨-, -, e2, e3⟩ := idx_facts t
  refine ⟨t, flush0_1 t, ?_⟩
  rw [mem_blk]
  intro a
  match a with
  | ⟨0, _⟩ => show win0_1.index t (0 : Fin 2) * 4096 ≤ (i 0).val ∧ (i 0).val < win0_1.index t (0 : Fin 2) * 4096 + 4096; omega
  | ⟨1, _⟩ => show win0_1.index t (1 : Fin 2) * 128 ≤ (i 1).val ∧ (i 1).val < win0_1.index t (1 : Fin 2) * 128 + 128; omega

/-- The output array after the region. -/
theorem final (c : Dev nD) : (dat0 (F := Ideal) V c).arrAt 1 cfg0.N = Wq (V c main_arg1) :=
  (dat0 (F := Ideal) V c).arrAt_eq_of_cover 1 (Wq (V c main_arg1)) (fun t _ => flushed_eq V c t) cover

end Cert.KernelIdeal.Region0

end
-- ==== Proof.Region1.lean ====
/-
  The second region (the activations): the array it leaves.

  The grid has 32 points; point `t` reads rows `256·t … 256·t + 255` (all 4096 columns) of the flattened activations
  and writes the same rows of the output.  A row of the block is a whole row of the array, so what point `t` writes
  back is its block of the whole-array function `Xq`; the 32 blocks tile the array, hence the array ends at `Xq` of
  the flattened activations as the region found them.
-/
import proofs.«162214_j1812476199311_1_alg».proof.Proof.Gen.KernelIdeal.Frame
import proofs.«162214_j1812476199311_1_alg».proof.Proof.KBody

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.KBody Cert.Spec

variable (V : (c : Dev nD) → (b : Ref sig .tc) → Buf (Elt Ideal) ((c : Thread nD τ).loc b))

theorem hz : (![0, 0] : Fin 2 → Nat) = fun _ => 0 := funext fun a => by fin_cases a <;> rfl

/-- Both windows' blocks at point `t`: row block `t`, all columns. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The body's value on a block `x0` that holds rows `256·tt …` of `x`, at a block entry `j` sitting at `i` in the
    array, is `Xq x` there: the block's row is the array's whole row. -/
theorem block_eq (x : SX2.Idx → EReal) (x0 : S256x4096.Idx → EReal) (tt : ℕ) (ht : tt < 32)
    (hx : ∀ (r : Fin 256) (k : Fin 4096), x0 (ix2 r k) = x (ix2 (⟨256 * tt + r.val, by have := r.isLt; omega⟩ : Fin 8192) k))
    (j : S256x4096.Idx) (i : SX2.Idx) (hi0 : (i 0).val = 256 * tt + (j 0).val) (hi1 : (i 1).val = (j 1).val) :
    (k1_pay1 (F := Ideal) x0 : S256x4096.Idx → EReal) j = Xq x i := by
  obtain ⟨r, q, rfl⟩ : ∃ (r : Fin 256) (q : Fin 4096), j = ix2 r q := ⟨j 0, j 1, eq_ix2 j⟩
  obtain ⟨n, k, rfl⟩ : ∃ (n : Fin 8192) (k : Fin 4096), i = ix2 n k := ⟨i 0, i 1, eq_ix2 i⟩
  have hb : 256 * tt + r.val < 8192 := by have := r.isLt; omega
  have hk : k = q := Fin.ext hi1
  have hn : n = (⟨256 * tt + r.val, hb⟩ : Fin 8192) := Fin.ext hi0
  subst hk
  subst hn
  rw [pay1_apply, Xq_ix2]
  unfold XqAt
  rw [funext (hx r), hx r k]

/-- Input window 0's block at point `t`, entry by entry. -/
theorem iblk_read (c : Dev nD) (t : Fin cfg1.N) (r : Fin 256) (k : Fin 4096) :
    iblk1 V c 0 t (ix2 r k) = V c main_v1 (ix2 (⟨256 * t.val + r.val, by have := r.isLt; have := t.isLt; have h : cfg1.N = 32 := N_1; show 256 * t.val + r.val < 8192; omega⟩ : Fin 8192) k) := by
  show V c main_v1 (((cfg1.win 0).blk t).view.emb (ix2 r k)) = V c main_v1 _
  obtain ⟨e0, e1, -, -⟩ := idx_facts t
  refine congrArg (V c main_v1) (funext fun a => Fin.ext ?_)
  match a with
  | ⟨0, _⟩ => show win1_0.index t (0 : Fin 2) * 256 + 1 * r.val = 256 * t.val + r.val; omega
  | ⟨1, _⟩ => show win1_0.index t (1 : Fin 2) * 4096 + 1 * k.val = k.val; omega

/-- What point `t` writes back is block `t` of `Xq` of the flattened activations as the region finds them. -/
theorem flushed_eq (c : Dev nD) (t : Fin cfg1.N) :
    (dat1 (F := Ideal) V c).flushed 1 t = ((cfg1.win 1).blk t).view.read (Elt Ideal) (Xq (V c main_v1)) := by
  show (cfg1.win 1).cut (grid1.coords t) ((dat1 (F := Ideal) V c).after 1 t) = _
  rw [after1_1]
  unfold out1_1
  rw [View.canon_unit_zero hz]
  simp only [View.ld_unit_zero (S := S256x4096) hz]
  obtain ⟨-, -, e2, e3⟩ := idx_facts t
  have ht : t.val < 32 := by have := t.isLt; have h : cfg1.N = 32 := N_1; omega
  funext j
  refine block_eq (V c main_v1) (iblk1 V c 0 t) t.val ht (fun r k => iblk_read V c t r k) j (((cfg1.win 1).blk t).view.emb j) ?_ ?_
  · show win1_1.index t (0 : Fin 2) * 256 + 1 * (j 0).val = 256 * t.val + (j 0).val; omega
  · show win1_1.index t (1 : Fin 2) * 4096 + 1 * (j 1).val = (j 1).val; omega

theorem mem_blk (t : Fin cfg1.N) (i : S8192x4096.Idx) :
    i ∈ ((cfg1.win 1).blk t).view.set ↔ ∀ a : Fin 2, win1_1.index t a * S256x4096.size a ≤ (i a).val ∧ (i a).val < win1_1.index t a * S256x4096.size a + S256x4096.size a := by
  show i ∈ ((View.whole main_v2).slice (win1_1.rect t)).set ↔ _
  rw [View.set_slice_whole, Rect.mem_set_unit]
  exact Iff.rfl

/-- Every entry of the output lies in the block of the point numbered by its row block. -/
theorem cover (i : S8192x4096.Idx) : ∃ t : Fin cfg1.N, (cfg1.win 1).flush t = true ∧ i ∈ ((cfg1.win 1).blk t).view.set := by
  have hi0 : (i 0).val < 8192 := (i 0).isLt
  have hi1 : (i 1).val < 4096 := (i 1).isLt
  have hN : grid1.N = 32 := N_1
  let t : Fin cfg1.N := ⟨(i 0).val / 256, by show (i 0).val / 256 < grid1.N; omega⟩
  have htv : t.val = (i 0).val / 256 := rfl
  obtain ⟨-, -, e2, e3⟩ := idx_facts t
  refine ⟨t, flush1_1 t, ?_⟩
  rw [mem_blk]
  intro a
  match a with
  | ⟨0, _⟩ => show win1_1.index t (0 : Fin 2) * 256 ≤ (i 0).val ∧ (i 0).val < win1_1.index t (0 : Fin 2) * 256 + 256; omega
  | ⟨1, _⟩ => show win1_1.index t (1 : Fin 2) * 4096 ≤ (i 1).val ∧ (i 1).val < win1_1.index t (1 : Fin 2) * 4096 + 4096; omega

/-- The output array after the region. -/
theorem final (c : Dev nD) : (dat1 (F := Ideal) V c).arrAt 1 cfg1.N = Xq (V c main_v1) :=
  (dat1 (F := Ideal) V c).arrAt_eq_of_cover 1 (Xq (V c main_v1)) (fun t _ => flushed_eq V c t) cover

end Cert.KernelIdeal.Region1

end
-- ==== Proof.Region2.lean ====
/-
  The third region (the product): the array it leaves.

  The grid is 8 × 8; point `(t₀, t₁)` reads rows `1024·t₀ …` of the quantized activations and rows `512·t₁ …` of the
  quantized weights (all 4096 columns of both) and writes the `[1024, 512]` block `(t₀, t₁)` of the output, entry
  `(r, q)` of which is the sum over `k` of the products of row `r` of the first block and row `q` of the second.  That
  is the block of the whole-array product `MM`; the 64 blocks tile the array.
-/
import proofs.«162214_j1812476199311_1_alg».proof.Proof.Gen.KernelIdeal.Frame
import proofs.«162214_j1812476199311_1_alg».proof.Proof.KBody

set_option maxRecDepth 16384

noncomputable section

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.KBody Cert.Spec

variable (V : (c : Dev nD) → (b : Ref sig .tc) → Buf (Elt Ideal) ((c : Thread nD τ).loc b))

theorem hz : (![0, 0] : Fin 2 → Nat) = fun _ => 0 := funext fun a => by fin_cases a <;> rfl

/-- The three windows' blocks at point `t = 8·t₀ + t₁`. -/
theorem idx_facts : ∀ t : Fin cfg2.N, win2_0.index t (0 : Fin 2) = t.val / 8 ∧ win2_0.index t (1 : Fin 2) = 0
    ∧ win2_1.index t (0 : Fin 2) = t.val % 8 ∧ win2_1.index t (1 : Fin 2) = 0
    ∧ win2_2.index t (0 : Fin 2) = t.val / 8 ∧ win2_2.index t (1 : Fin 2) = t.val % 8 :=
  (by decide +kernel : ∀ t : Fin grid2.N, _)

/-- The body's value on blocks `x0`, `x1` holding rows `1024·t₀ …` of `a` and rows `512·t₁ …` of `b`, at a block entry
    `j` sitting at `i` in the array, is the product `MM a b` there. -/
theorem block_eq (a : SX2.Idx → EReal) (b : SW.Idx → EReal) (x0 : Vec Ideal S1024x4096 .bf16) (x1 : Vec Ideal S512x4096 .bf16)
    (t0 t1 : ℕ) (ht0 : t0 < 8) (ht1 : t1 < 8)
    (hx0 : ∀ (r : Fin 1024) (k : Fin 4096), x0 (ix2 r k) = a (ix2 (⟨1024 * t0 + r.val, by have := r.isLt; omega⟩ : Fin 8192) k))
    (hx1 : ∀ (q : Fin 512) (k : Fin 4096), x1 (ix2 q k) = b (ix2 (⟨512 * t1 + q.val, by have := q.isLt; omega⟩ : Fin 4096) k))
    (j : S1024x512.Idx) (i : SX2.Idx) (hi0 : (i 0).val = 1024 * t0 + (j 0).val) (hi1 : (i 1).val = 512 * t1 + (j 1).val) :
    k2_pay1 (F := Ideal) x0 x1 j = MM a b i := by
  obtain ⟨r, q, rfl⟩ : ∃ (r : Fin 1024) (q : Fin 512), j = ix2 r q := ⟨j 0, j 1, eq_ix2 j⟩
  obtain ⟨n, k, rfl⟩ : ∃ (n : Fin 8192) (k : Fin 4096), i = ix2 n k := ⟨i 0, i 1, eq_ix2 i⟩
  have hb0 : 1024 * t0 + r.val < 8192 := by have := r.isLt; omega
  have hb1 : 512 * t1 + q.val < 4096 := by have := q.isLt; omega
  have hn : n = (⟨1024 * t0 + r.val, hb0⟩ : Fin 8192) := Fin.ext hi0
  have hk : k = (⟨512 * t1 + q.val, hb1⟩ : Fin 4096) := Fin.ext hi1
  subst hn
  subst hk
  rw [pay2_apply, MM_ix2]
  unfold MMAt
  exact Finset.sum_congr rfl fun k _ => by rw [hx0, hx1]

theorem iblk0_read (c : Dev nD) (t : Fin cfg2.N) (r : Fin 1024) (k : Fin 4096) :
    iblk2 V c 0 t (ix2 r k) = V c main_v2 (ix2 (⟨1024 * (t.val / 8) + r.val, by have := r.isLt; have := t.isLt; have h : cfg2.N = 64 := N_2; show 1024 * (t.val / 8) + r.val < 8192; omega⟩ : Fin 8192) k) := by
  show V c main_v2 (((cfg2.win 0).blk t).view.emb (ix2 r k)) = V c main_v2 _
  obtain ⟨e0, e1, -, -, -, -⟩ := idx_facts t
  refine congrArg (V c main_v2) (funext fun a => Fin.ext ?_)
  match a with
  | ⟨0, _⟩ => show win2_0.index t (0 : Fin 2) * 1024 + 1 * r.val = 1024 * (t.val / 8) + r.val; omega
  | ⟨1, _⟩ => show win2_0.index t (1 : Fin 2) * 4096 + 1 * k.val = k.val; omega

theorem iblk1_read (c : Dev nD) (t : Fin cfg2.N) (q : Fin 512) (k : Fin 4096) :
    iblk2 V c 1 t (ix2 q k) = V c main_v0 (ix2 (⟨512 * (t.val % 8) + q.val, by have := q.isLt; show 512 * (t.val % 8) + q.val < 4096; omega⟩ : Fin 4096) k) := by
  show V c main_v0 (((cfg2.win 1).blk t).view.emb (ix2 q k)) = V c main_v0 _
  obtain ⟨-, -, e2, e3, -, -⟩ := idx_facts t
  refine congrArg (V c main_v0) (funext fun a => Fin.ext ?_)
  match a with
  | ⟨0, _⟩ => show win2_1.index t (0 : Fin 2) * 512 + 1 * q.val = 512 * (t.val % 8) + q.val; omega
  | ⟨1, _⟩ => show win2_1.index t (1 : Fin 2) * 4096 + 1 * k.val = k.val; omega

/-- What point `t` writes back is block `t` of the product of the two arrays as the region finds them. -/
theorem flushed_eq (c : Dev nD) (t : Fin cfg2.N) :
    (dat2 (F := Ideal) V c).flushed 2 t = ((cfg2.win 2).blk t).view.read (Elt Ideal) (MM (V c main_v2) (V c main_v0)) := by
  show (cfg2.win 2).cut (grid2.coords t) ((dat2 (F := Ideal) V c).after 2 t) = _
  rw [after2_2]
  unfold out2_2
  rw [View.canon_unit_zero hz]
  simp only [View.ld_unit_zero (S := S1024x4096) hz, View.ld_unit_zero (S := S512x4096) hz]
  obtain ⟨-, -, -, -, e4, e5⟩ := idx_facts t
  have ht : t.val < 64 := by have := t.isLt; have h : cfg2.N = 64 := N_2; omega
  funext j
  refine block_eq (V c main_v2) (V c main_v0) (iblk2 V c 0 t) (iblk2 V c 1 t) (t.val / 8) (t.val % 8) (by omega) (by omega)
    (fun r k => iblk0_read V c t r k) (fun q k => iblk1_read V c t q k) j (((cfg2.win 2).blk t).view.emb j) ?_ ?_
  · show win2_2.index t (0 : Fin 2) * 1024 + 1 * (j 0).val = 1024 * (t.val / 8) + (j 0).val; omega
  · show win2_2.index t (1 : Fin 2) * 512 + 1 * (j 1).val = 512 * (t.val % 8) + (j 1).val; omega

theorem mem_blk (t : Fin cfg2.N) (i : S8192x4096.Idx) :
    i ∈ ((cfg2.win 2).blk t).view.set ↔ ∀ a : Fin 2, win2_2.index t a * S1024x512.size a ≤ (i a).val ∧ (i a).val < win2_2.index t a * S1024x512.size a + S1024x512.size a := by
  show i ∈ ((View.whole main_v3).slice (win2_2.rect t)).set ↔ _
  rw [View.set_slice_whole, Rect.mem_set_unit]
  exact Iff.rfl

/-- Every entry of the output lies in the block of the point numbered by its row block and column block. -/
theorem cover (i : S8192x4096.Idx) : ∃ t : Fin cfg2.N, (cfg2.win 2).flush t = true ∧ i ∈ ((cfg2.win 2).blk t).view.set := by
  have hi0 : (i 0).val < 8192 := (i 0).isLt
  have hi1 : (i 1).val < 4096 := (i 1).isLt
  have hN : grid2.N = 64 := N_2
  let t : Fin cfg2.N := ⟨8 * ((i 0).val / 1024) + (i 1).val / 512, by show 8 * ((i 0).val / 1024) + (i 1).val / 512 < grid2.N; omega⟩
  have htv : t.val = 8 * ((i 0).val / 1024) + (i 1).val / 512 := rfl
  obtain ⟨-, -, -, -, e4, e5⟩ := idx_facts t
  refine ⟨t, flush2_2 t, ?_⟩
  rw [mem_blk]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 512 ≤ (i 1).val ∧ (i 1).val < win2_2.index t (1 : Fin 2) * 512 + 512; omega

/-- The output array after the region. -/
theorem final (c : Dev nD) : (dat2 (F := Ideal) V c).arrAt 2 cfg2.N = MM (V c main_v2) (V c main_v0) :=
  (dat2 (F := Ideal) V c).arrAt_eq_of_cover 2 (MM (V c main_v2) (V c main_v0)) (fun t _ => flushed_eq V c t) cover

end Cert.KernelIdeal.Region2

end
-- ==== Proof.KernelValue.lean ====
/-
  The idealized kernel's result, as a function of the two argument arrays.

  Reading the boundaries of @main backwards: the result is the third region's output cast to `[4, 2048, 4096]`; the
  third region's output is the product `MM` of the second region's output and the first region's output; the second
  region's output is `Xq` of the activations cast to `[8192, 4096]`; the first region's output is `Wq` of the weights;
  nothing else writes these arrays in between.  Hence the result is `Y` of the arguments.
-/
import proofs.«162214_j1812476199311_1_alg».proof.Proof.KernelRun
import proofs.«162214_j1812476199311_1_alg».proof.Proof.Region0
import proofs.«162214_j1812476199311_1_alg».proof.Proof.Region1
import proofs.«162214_j1812476199311_1_alg».proof.Proof.Region2

set_option maxRecDepth 16384

noncomputable section

namespace Cert.KernelIdeal.KValue

open Idealize.ShloMosaic Idealize.ShloMosaic.TcCoe Idealize.ShloMosaic.ValueIdx Idealize.SL.Sem Idealize.ShloMosaic.StableHlo
open Cert.KernelIdeal Cert.KernelIdeal.Gen Cert.Spec

variable (m : (ℓ : Loc nD τ sig) → Buf (Elt Ideal) ℓ) (ρ : Dev nD → PrngReg)

/-- The quantized weights, when the third region reads them, are `Wq` of the weights. -/
theorem weights_at3 (c : Dev nD) : V3 (F := Ideal) m ρ c main_v0 = Wq (m ((c : Thread nD τ).loc main_arg1)) := by
  have e1 : W3 (F := Ideal) m ρ c (Proc.devRef .tc main_v0) = W2 (F := Ideal) m ρ c (Proc.devRef .tc main_v0) :=
    W3_of_ne m ρ c main_v0 (by decide)
  have e2 : W2 (F := Ideal) m ρ c (Proc.devRef .tc main_v0) = W1 (F := Ideal) m ρ c (Proc.devRef .tc main_v0) := by
    show StableHlo.after hostOps1 (W1 (F := Ideal) m ρ c) (Proc.devRef .tc main_v0) = _
    after_results
  have e3 : W1 (F := Ideal) m ρ c (Proc.devRef .tc main_v0) = (dat0 (F := Ideal) (V0 m ρ) c).arrAt 1 cfg0.N := W1_arr m ρ c 1
  exact e1.trans (e2.trans (e3.trans (Region0.final (V0 m ρ) c)))

/-- The flattened activations, when the second region reads them. -/
theorem flat_at1 (c : Dev nD) :
    V2 (F := Ideal) m ρ c main_v1 = shapeCast S8192x4096 (m ((c : Thread nD τ).loc main_arg0)) shapeCasts_S4x2048x4096_S8192x4096 := by
  have e0 : W1 (F := Ideal) m ρ c (Proc.devRef .tc main_arg0) = m ((c : Thread nD τ).loc main_arg0) :=
    W1_of_ne m ρ c main_arg0 (by decide)
  show StableHlo.after hostOps1 (W1 (F := Ideal) m ρ c) (Proc.devRef .tc main_v1) = _
  after_results
  rw [e0]
  rfl

/-- The quantized activations, when the third region reads them. -/
theorem acts_at3 (c : Dev nD) :
    V3 (F := Ideal) m ρ c main_v2 = Xq (shapeCast S8192x4096 (m ((c : Thread nD τ).loc main_arg0)) shapeCasts_S4x2048x4096_S8192x4096) := by
  have e1 : W3 (F := Ideal) m ρ c (Proc.devRef .tc main_v2) = (dat1 (F := Ideal) (V2 m ρ) c).arrAt 1 cfg1.N := W3_arr m ρ c 1
  have e2 := Region1.final (V2 m ρ) c
  rw [flat_at1] at e2
  exact e1.trans e2

/-- The product, after the third region. -/
theorem prod_at4 (c : Dev nD) :
    W4 (F := Ideal) m ρ c (Proc.devRef .tc main_v3)
      = MM (Xq (shapeCast S8192x4096 (m ((c : Thread nD τ).loc main_arg0)) shapeCasts_S4x2048x4096_S8192x4096)) (Wq (m ((c : Thread nD τ).loc main_arg1))) := by
  have e1 : W4 (F := Ideal) m ρ c (Proc.devRef .tc main_v3) = (dat2 (F := Ideal) (V3 m ρ) c).arrAt 2 cfg2.N := W4_arr m ρ c 2
  have e2 := Region2.final (V3 m ρ) c
  rw [acts_at3, weights_at3] at e2
  exact e1.trans e2

/-- The result buffer at the last boundary. -/
theorem last_eq (c : Dev nD) :
    W5 (F := Ideal) m ρ c (Proc.devRef .tc main_v4)
      = Y shapeCasts_S4x2048x4096_S8192x4096 shapeCasts_S8192x4096_S4x2048x4096 (m ((c : Thread nD τ).loc main_arg0)) (m ((c : Thread nD τ).loc main_arg1)) := by
  have e := prod_at4 m ρ c
  show StableHlo.after hostOps3 (W4 (F := Ideal) m ρ c) (Proc.devRef .tc main_v4) = _
  after_results
  rw [e]
  rfl

/-- Every weakly fair execution of the idealized kernel terminates without a fault with the result at `Y` of the
    arguments and the arguments as launched. -/
theorem run : θ_run (defs (F := Ideal)) (onTc (τ := τ) (main (F := Ideal))) ⟨m, fun _ => 0, ρ⟩ (fun r => ∀ c : Dev nD,
      r.2.mem ((c.tc : Thread nD τ).loc main_v4)
        = Y shapeCasts_S4x2048x4096_S8192x4096 shapeCasts_S8192x4096_S4x2048x4096 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := Ideal)) _ _).mono (fun r h c => ⟨(h c).1.trans (last_eq m ρ c), (h c).2⟩) (KRun.run_last m ρ)

end Cert.KernelIdeal.KValue

end
-- ==== Proof.RefW.lean ====
/-
  The reference's quantized weights, read at an entry.

  The reference reshapes the weights to `[131072, 128]` — row `32·n + g` holds group `g` of row `n` —, takes each row's
  least and greatest entries, quantizes and maps back entry by entry, and reshapes to `[4096, 4096]`.  Entry `(n, k)`
  of the result is therefore the quantize–dequantize of `w (n, k)` against the extremes of its group: `Wq w (n, k)`.
-/
import proofs.«162214_j1812476199311_1_alg».proof.Proof.Gen.ReferenceIdeal.Read
import proofs.«162214_j1812476199311_1_alg».proof.Proof.Spec

set_option maxRecDepth 16384

noncomputable section

namespace Cert.ReferenceIdeal.RefW

open Idealize.ShloMosaic Idealize.ShloMosaic.ValueIdx Cert.RowQuant Cert.Spec
open Cert.ReferenceIdeal Cert.ReferenceIdeal.Gen Cert.ReferenceIdeal.Read

/-! ## Where the broadcasts read -/

theorem e12 (R : Fin 131072) (c : Fin 128) : idx_main_v12 (ix2 R c) = ix2 R (0 : Fin 1) :=
  funext fun a => by match a with | ⟨0, _⟩ => rfl | ⟨1, _⟩ => rfl
theorem e15 (R : Fin 131072) (c : Fin 128) : idx_main_v15 (ix2 R c) = ix2 R (0 : Fin 1) :=
  funext fun a => by match a with | ⟨0, _⟩ => rfl | ⟨1, _⟩ => rfl
theorem e18 (R : Fin 131072) (c : Fin 128) : idx_main_v18 (ix2 R c) = ix2 R (0 : Fin 1) :=
  funext fun a => by match a with | ⟨0, _⟩ => rfl | ⟨1, _⟩ => rfl
theorem e20 (R : Fin 131072) (c : Fin 128) : idx_main_v20 (ix2 R c) = ix2 R (0 : Fin 1) :=
  funext fun a => by match a with | ⟨0, _⟩ => rfl | ⟨1, _⟩ => rfl
theorem e2 (R : Fin 131072) : idx_main_v2 (ix2 R (0 : Fin 1)) = ix1 R :=
  funext fun a => by match a with | ⟨0, _⟩ => rfl
theorem e4 (R : Fin 131072) : idx_main_v4 (ix2 R (0 : Fin 1)) = ix1 R :=
  funext fun a => by match a with | ⟨0, _⟩ => rfl

/-! ## The rows' extremes -/

theorem rowMin (x1 : SW.Idx → EReal) (R : Fin 131072) :
    val_main_v1 (F := Ideal) x1 (ix1 R) = least fun c : Fin 128 => val_main_v0 (F := Ideal) x1 (ix2 R c) := by
  unfold val_main_v1
  exact host_rowMin (a := 131072) (b := 128) (val_main_v0 (F := Ideal) x1) (val_main_cst (F := Ideal)) _ (by decide) _ R

theorem rowMax (x1 : SW.Idx → EReal) (R : Fin 131072) :
    val_main_v3 (F := Ideal) x1 (ix1 R) = greatest fun c : Fin 128 => val_main_v0 (F := Ideal) x1 (ix2 R c) := by
  unfold val_main_v3
  exact host_rowMax (a := 131072) (b := 128) (val_main_v0 (F := Ideal) x1) (val_main_cst_0 (F := Ideal)) _ (by decide) _ R

/-! ## The four constants, broadcast -/

theorem lvl_apply (i : S131072x1.Idx) : val_main_v6 (F := Ideal) i = FloatOps.ofBits (F := Ideal) .f32 0x41700000#32 := by
  rw [val_main_v6_apply, val_main_cst_1_apply]
theorem zlo_apply (i : S131072x1.Idx) : val_main_v10 (F := Ideal) i = FloatOps.ofBits (F := Ideal) .f32 0xC1000000#32 := by
  rw [val_main_v10_apply, val_main_cst_2_apply]
theorem chi_apply (i : S131072x128.Idx) : val_main_call2_v4 (F := Ideal) i = FloatOps.sitofp (F := Ideal) .f32 (7#32 : BitVec 32) := by
  rw [val_main_call2_v4_apply, val_main_call2_v3_apply, val_main_c_3_apply]
theorem clo_apply (i : S131072x128.Idx) : val_main_call2_v1 (F := Ideal) i = FloatOps.sitofp (F := Ideal) .f32 (4294967288#32 : BitVec 32) := by
  rw [val_main_call2_v1_apply, val_main_call2_v0_apply, val_main_c_apply]

/-! ## A row of the grouped array -/

theorem row_apply (x1 : SW.Idx → EReal) (R : Fin 131072) (c : Fin 128) :
    val_main_v21 (F := Ideal) x1 (ix2 R c)
      = qdqW (least fun j : Fin 128 => val_main_v0 (F := Ideal) x1 (ix2 R j)) (greatest fun j : Fin 128 => val_main_v0 (F := Ideal) x1 (ix2 R j))
          (val_main_v0 (F := Ideal) x1 (ix2 R c)) := by
  rw [val_main_v21_apply, val_main_v20_apply, e20, val_main_v19_apply, val_main_v18_apply, e18,
    val_main_v17_apply, chi_apply, val_main_call2_v2_apply, clo_apply,
    val_main_v16_apply, val_main_v15_apply, e15, val_main_v14_apply, val_main_v13_apply, val_main_v12_apply, e12,
    val_main_v11_apply, zlo_apply, val_main_v9_apply, val_main_v8_apply,
    val_main_v7_apply, lvl_apply, val_main_v5_apply, val_main_v4_apply, e4, val_main_v2_apply, e2, rowMin, rowMax]
  exact qdq_host _ _ _ _ _ _ _

/-! ## The entry (n, k) -/

/-- Row `32·n + ⌊k/128⌋`, column `k mod 128` of the grouped array is entry `(n, k)`. -/
theorem e22 (n k : Fin 4096) :
    idx_main_v22 (ix2 n k) = ix2 (⟨(n.val * 4096 + k.val) / 128, by have := n.isLt; have := k.isLt; omega⟩ : Fin 131072)
      (⟨(n.val * 4096 + k.val) % 128, by omega⟩ : Fin 128) :=
  funext fun a => by match a with | ⟨0, _⟩ => rfl | ⟨1, _⟩ => rfl

/-- The grouped array at row `32·n + ⌊k/128⌋`, column `j`, is the weights at `(n, 128·⌊k/128⌋ + j)`. -/
theorem v0_group (x1 : SW.Idx → EReal) (n k : Fin 4096) (j : Fin 128) :
    val_main_v0 (F := Ideal) x1 (ix2 (⟨(n.val * 4096 + k.val) / 128, by have := n.isLt; have := k.isLt; omega⟩ : Fin 131072) j) = x1 (ix2 n (grp k j)) := by
  rw [val_main_v0_apply]
  refine congrArg x1 (funext fun a => Fin.ext ?_)
  have hn := n.isLt; have hk := k.isLt; have hj := j.isLt
  match a with
  | ⟨0, _⟩ => show ((n.val * 4096 + k.val) / 128 * 128 + j.val) / 4096 = n.val; omega
  | ⟨1, _⟩ => show ((n.val * 4096 + k.val) / 128 * 128 + j.val) % 4096 = 128 * (k.val / 128) + j.val; omega

theorem v0_self (x1 : SW.Idx → EReal) (n k : Fin 4096) :
    val_main_v0 (F := Ideal) x1 (ix2 (⟨(n.val * 4096 + k.val) / 128, by have := n.isLt; have := k.isLt; omega⟩ : Fin 131072)
      (⟨(n.val * 4096 + k.val) % 128, by omega⟩ : Fin 128)) = x1 (ix2 n k) := by
  rw [val_main_v0_apply]
  refine congrArg x1 (funext fun a => Fin.ext ?_)
  have hn := n.isLt; have hk := k.isLt
  match a with
  | ⟨0, _⟩ => show ((n.val * 4096 + k.val) / 128 * 128 + (n.val * 4096 + k.val) % 128) / 4096 = n.val; omega
  | ⟨1, _⟩ => show ((n.val * 4096 + k.val) / 128 * 128 + (n.val * 4096 + k.val) % 128) % 4096 = k.val; omega

/-- The reference's quantized weights are `Wq` of the weights. -/
theorem weights_eq (x1 : SW.Idx → EReal) : val_main_v22 (F := Ideal) x1 = Wq x1 := by
  funext i
  obtain ⟨n, k, rfl⟩ : ∃ (n : Fin 4096) (k : Fin 4096), i = ix2 n k := ⟨i 0, i 1, eq_ix2 i⟩
  rw [val_main_v22_apply, e22, row_apply, Wq_ix2]
  unfold WqAt
  rw [funext (v0_group x1 n k), v0_self]

end Cert.ReferenceIdeal.RefW

end
-- ==== Proof.RefX.lean ====
/-
  The reference's quantized activations, read at an entry.

  The reference takes the least and greatest entries along the last axis of the activations `[4, 2048, 4096]`,
  quantizes to 8 bits and maps back entry by entry: entry `(b, m, k)` of the result is the quantize–dequantize of
  `x (b, m, k)` against the extremes of row `(b, m)`.
-/
import proofs.«162214_j1812476199311_1_alg».proof.Proof.Gen.ReferenceIdeal.Read
import proofs.«162214_j1812476199311_1_alg».proof.Proof.Spec

set_option maxRecDepth 16384

noncomputable section

namespace Cert.ReferenceIdeal.RefX

open Idealize.ShloMosaic Idealize.ShloMosaic.ValueIdx Cert.RowQuant Cert.Spec
open Cert.ReferenceIdeal Cert.ReferenceIdeal.Gen Cert.ReferenceIdeal.Read

/-! ## Where the broadcasts read -/

theorem e34 (b : Fin 4) (m : Fin 2048) (k : Fin 4096) : idx_main_v34 (ix3 b m k) = ix3 b m (0 : Fin 1) :=
  funext fun a => by match a with | ⟨0, _⟩ => rfl | ⟨1, _⟩ => rfl | ⟨2, _⟩ => rfl
theorem e37 (b : Fin 4) (m : Fin 2048) (k : Fin 4096) : idx_main_v37 (ix3 b m k) = ix3 b m (0 : Fin 1) :=
  funext fun a => by match a with | ⟨0, _⟩ => rfl | ⟨1, _⟩ => rfl | ⟨2, _⟩ => rfl
theorem e40 (b : Fin 4) (m : Fin 2048) (k : Fin 4096) : idx_main_v40 (ix3 b m k) = ix3 b m (0 : Fin 1) :=
  funext fun a => by match a with | ⟨0, _⟩ => rfl | ⟨1, _⟩ => rfl | ⟨2, _⟩ => rfl
theorem e42 (b : Fin 4) (m : Fin 2048) (k : Fin 4096) : idx_main_v42 (ix3 b m k) = ix3 b m (0 : Fin 1) :=
  funext fun a => by match a with | ⟨0, _⟩ => rfl | ⟨1, _⟩ => rfl | ⟨2, _⟩ => rfl
theorem e24 (b : Fin 4) (m : Fin 2048) : idx_main_v24 (ix3 b m (0 : Fin 1)) = ix2 b m :=
  funext fun a => by match a with | ⟨0, _⟩ => rfl | ⟨1, _⟩ => rfl
theorem e26 (b : Fin 4) (m : Fin 2048) : idx_main_v26 (ix3 b m (0 : Fin 1)) = ix2 b m :=
  funext fun a => by match a with | ⟨0, _⟩ => rfl | ⟨1, _⟩ => rfl

/-! ## The rows' extremes -/

theorem rowMin (x0 : SX3.Idx → EReal) (b : Fin 4) (m : Fin 2048) :
    val_main_v23 (F := Ideal) x0 (ix2 b m) = least fun k : Fin 4096 => x0 (ix3 b m k) := by
  unfold val_main_v23
  exact host_rowMin3 (a := 4) (b := 2048) (d := 4096) x0 (val_main_cst_4 (F := Ideal)) _ (by decide) _ b m

theorem rowMax (x0 : SX3.Idx → EReal) (b : Fin 4) (m : Fin 2048) :
    val_main_v25 (F := Ideal) x0 (ix2 b m) = greatest fun k : Fin 4096 => x0 (ix3 b m k) := by
  unfold val_main_v25
  exact host_rowMax3 (a := 4) (b := 2048) (d := 4096) x0 (val_main_cst_5 (F := Ideal)) _ (by decide) _ b m

/-! ## The four constants, broadcast -/

theorem lvl_apply (i : S4x2048x1.Idx) : val_main_v28 (F := Ideal) i = FloatOps.ofBits (F := Ideal) .f32 0x437F0000#32 := by
  rw [val_main_v28_apply, val_main_cst_6_apply]
theorem zlo_apply (i : S4x2048x1.Idx) : val_main_v32 (F := Ideal) i = FloatOps.ofBits (F := Ideal) .f32 0xC3000000#32 := by
  rw [val_main_v32_apply, val_main_cst_7_apply]
theorem chi_apply (i : S4x2048x4096.Idx) : val_main_call5_v4 (F := Ideal) i = FloatOps.sitofp (F := Ideal) .f32 (127#32 : BitVec 32) := by
  rw [val_main_call5_v4_apply, val_main_call5_v3_apply, val_main_c_9_apply]
theorem clo_apply (i : S4x2048x4096.Idx) : val_main_call5_v1 (F := Ideal) i = FloatOps.sitofp (F := Ideal) .f32 (4294967168#32 : BitVec 32) := by
  rw [val_main_call5_v1_apply, val_main_call5_v0_apply, val_main_c_8_apply]

/-- The reference's quantized activations at `(b, m, k)`. -/
theorem acts_apply (x0 : SX3.Idx → EReal) (b : Fin 4) (m : Fin 2048) (k : Fin 4096) :
    val_main_v43 (F := Ideal) x0 (ix3 b m k)
      = qdqX (least fun j : Fin 4096 => x0 (ix3 b m j)) (greatest fun j : Fin 4096 => x0 (ix3 b m j)) (x0 (ix3 b m k)) := by
  rw [val_main_v43_apply, val_main_v42_apply, e42, val_main_v41_apply, val_main_v40_apply, e40,
    val_main_v39_apply, chi_apply, val_main_call5_v2_apply, clo_apply,
    val_main_v38_apply, val_main_v37_apply, e37, val_main_v36_apply, val_main_v35_apply, val_main_v34_apply, e34,
    val_main_v33_apply, zlo_apply, val_main_v31_apply, val_main_v30_apply,
    val_main_v29_apply, lvl_apply, val_main_v27_apply, val_main_v26_apply, e26, val_main_v24_apply, e24, rowMin, rowMax]
  exact qdq_host _ _ _ _ _ _ _

end Cert.ReferenceIdeal.RefX

end
-- ==== Proof.RefValue.lean ====
/-
  The reference's result is `Y` of the arguments.

  The reference contracts the last axis of its quantized activations `[4, 2048, 4096]` with the last axis of its
  quantized weights `[4096, 4096]`: entry `(b, m, n)` is `∑ₖ xq (b, m, k) · wq (n, k)`.  Flattening `(b, m)` to the
  row `2048·b + m` this is the flat product `MM (Xq (flat x)) (Wq w)` at `(2048·b + m, n)`, which is `Y` at `(b, m, n)`:
  the flattened activations' row `2048·b + m` is the activations' row `(b, m)`, entry by entry, so their extremes
  and their quantized entries agree.
-/
import proofs.«162214_j1812476199311_1_alg».proof.Proof.RefW
import proofs.«162214_j1812476199311_1_alg».proof.Proof.RefX

set_option maxRecDepth 16384

noncomputable section

namespace Cert.ReferenceIdeal.RefValue

open Idealize.ShloMosaic Idealize.ShloMosaic.ValueIdx Cert.RowQuant Cert.Spec
open Cert.ReferenceIdeal Cert.ReferenceIdeal.Gen Cert.ReferenceIdeal.Read

theorem lidx_eq (b : Fin 4) (m : Fin 2048) (n k : Fin 4096) : lidx_main_v44 (ix3 b m n) k = ix3 b m k :=
  funext fun a => by match a with | ⟨0, _⟩ => rfl | ⟨1, _⟩ => rfl | ⟨2, _⟩ => rfl
theorem ridx_eq (b : Fin 4) (m : Fin 2048) (n k : Fin 4096) : ridx_main_v44 (ix3 b m n) k = ix2 n k :=
  funext fun a => by match a with | ⟨0, _⟩ => rfl | ⟨1, _⟩ => rfl

/-- The quantized flat activations at row `2048·b + m` are the reference's at `(b, m)`. -/
theorem acts_flat (h1 : SX3.ShapeCasts SX2) (x0 : SX3.Idx → EReal) (b : Fin 4) (m : Fin 2048) (k : Fin 4096) :
    val_main_v43 (F := Ideal) x0 (ix3 b m k)
      = Xq (shapeCast SX2 x0 h1) (ix2 (⟨2048 * b.val + m.val, by have := b.isLt; have := m.isLt; omega⟩ : Fin 8192) k) := by
  rw [RefX.acts_apply, Xq_ix2]
  unfold XqAt
  rw [funext (flat_apply h1 x0 b m), flat_apply h1 x0 b m k]

theorem result_eq (h1 : SX3.ShapeCasts SX2) (h2 : SX2.ShapeCasts SX3) (x0 : SX3.Idx → EReal) (x1 : SW.Idx → EReal) :
    val_main_v44 (F := Ideal) x0 x1 = Y h1 h2 x0 x1 := by
  funext i
  obtain ⟨b, m, n, rfl⟩ : ∃ (b : Fin 4) (m : Fin 2048) (n : Fin 4096), i = ix3 b m n := ⟨i 0, i 1, i 2, eq_ix3 i⟩
  rw [val_main_v44_apply]
  unfold Y
  rw [unflat_apply, MM_ix2]
  unfold MMAt
  refine Finset.sum_congr rfl fun k _ => ?_
  rw [lidx_eq, ridx_eq, acts_flat h1, RefW.weights_eq]

end Cert.ReferenceIdeal.RefValue

end
-- ==== Proof.lean ====
/-
  A 4-bit-weight, 8-bit-activation quantized linear layer: `y = Xq(x) · Wq(w)ᵀ`.

  The kernel is three pipelined regions between two reshapes.  The first quantizes the weights `[4096, 4096]` in
  groups of 128 consecutive entries of a row (scale `(max − min)/15`, zero point `−8 − round(min/scale)`, integers clamped
  to `[−8, 7]`) and maps them back; the second does the same row by row on the activations flattened to
  `[8192, 4096]` (255 steps, `[−128, 127]`); the third multiplies the two over the shared last axis in `[1024, 512]`
  output blocks.  The reference computes the same quantities with whole-array operations: the weights regrouped as
  `[131072, 128]`, the activations kept as `[4, 2048, 4096]`, one contraction at the end.

  At the ideal (extended-real) values a change of float format is the identity, a minimum or maximum over a set does
  not depend on the order, and a sum of products is the same sum however it is tiled; every other operation is applied
  entry by entry in the same order by both programs.  So both results are one function `Y` of the two argument
  arrays (Proof/Spec.lean), entry by entry: the kernel's by reading its three regions' outputs block by block
  (Proof/Region0–2.lean, Proof/KernelValue.lean), the reference's by reading its operations at an index
  (Proof/RefW.lean, Proof/RefX.lean, Proof/RefValue.lean).  No law of arithmetic beyond these is used, so the
  finiteness of the inputs is never opened.  The idealization rewrote nothing, so `preserves` is trivial.
-/
import proofs.«162214_j1812476199311_1_alg».proof.Defs
import proofs.«162214_j1812476199311_1_alg».proof.Proof.Gen.Kernel
import proofs.«162214_j1812476199311_1_alg».proof.Proof.Gen.Kernel.Skeleton
import proofs.«162214_j1812476199311_1_alg».proof.Proof.Gen.Kernel.Launch
import proofs.«162214_j1812476199311_1_alg».proof.Proof.Gen.Kernel.Points
import proofs.«162214_j1812476199311_1_alg».proof.Proof.Gen.Kernel.Frame
import proofs.«162214_j1812476199311_1_alg».proof.Proof.Gen.KernelIdeal
import proofs.«162214_j1812476199311_1_alg».proof.Proof.Gen.KernelIdeal.Skeleton
import proofs.«162214_j1812476199311_1_alg».proof.Proof.Gen.KernelIdeal.Launch
import proofs.«162214_j1812476199311_1_alg».proof.Proof.Gen.KernelIdeal.Points
import proofs.«162214_j1812476199311_1_alg».proof.Proof.Gen.KernelIdeal.Frame
import proofs.«162214_j1812476199311_1_alg».proof.Proof.Gen.ReferenceIdeal
import proofs.«162214_j1812476199311_1_alg».proof.Proof.Gen.Pre_finite_inputs
import proofs.«162214_j1812476199311_1_alg».proof.Proof.Gen.ReferenceIdeal.Run
import proofs.«162214_j1812476199311_1_alg».proof.Proof.Gen.ReferenceIdeal.Read
import proofs.«162214_j1812476199311_1_alg».proof.Proof.KernelValue
import proofs.«162214_j1812476199311_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a host program: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories agreeing on the arguments, end with their result at `Y` of the arguments. -/
theorem algebraic : Cert.algebraic_KernelIdeal_ReferenceIdeal := by
  intro m ρ m' ρ' _ hagree
  refine ⟨fun c => Cert.Spec.Y Cert.KernelIdeal.Gen.shapeCasts_S4x2048x4096_S8192x4096 Cert.KernelIdeal.Gen.shapeCasts_S8192x4096_S4x2048x4096
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2]
  exact Cert.ReferenceIdeal.RefValue.result_eq _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
